-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_arg6 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The idealized kernel's run with its result named.

  The program is three kernel regions among four stretches of host operations. The generated frame walks the
  buffer contents from the launch memory through every stretch and every region; after the last region every
  unscoped buffer holds the last boundary's contents. Here that same launch over the same segments is read once
  more at the program's result buffer, so that the run's post names the result — the last region's output array
  as its write-backs leave it — beside the unchanged arguments.
-/
import proofs.«149004_j11312943857937_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the seven arguments end as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.ValueRun

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Layer1.lean ====
/-
  The first kernel region: the node features times the first weight matrix.

  The region's grid has 20 points; point t reads rows 5000·t … 5000·t + 4999 of the 100000×128 feature matrix and
  the whole 128×64 weight matrix, and writes the product of the two blocks — the operands rounded to bf16, which at
  the extended reals is the identity, multiplied into a zero accumulator — back to the same rows of the 100000×64
  result. Entry (r, q) of the result is therefore the sum over k of feature (r, k) times weight (k, q): the
  reference's one whole matrix product, entry by entry. The 20 row blocks tile the result, so after the region the
  result array IS that product.
-/
import proofs.«149004_j11312943857937_1_alg».proof.Proof.Gen.KernelIdeal.Frame
import proofs.«149004_j11312943857937_1_alg».proof.Proof.Gen.ReferenceIdeal.Read
import proofs.«149004_j11312943857937_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block of rows a grid point works on: the feature window and the result window move down one block of rows
    per point, the weight window stays at the whole matrix. -/
theorem blocks_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at entry (p, q): the row p of the feature block against column q of the weights. -/
theorem product_entry (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.PlainDot.matmul_zero_apply dot_S5000x128_S128x64_S5000x64_1_0_0_1_n_n rfl none
    (truncf (F := Ideal) .bf16 x0 bitsLt_bf16_f32) (truncf (F := Ideal) .bf16 x1 bitsLt_bf16_f32) p q

/-- What point t writes back is block t of the whole product of the two arrays as the region finds them. -/
theorem flushed_product (c : Dev nD) (t : Fin cfg0.N) :
    (dat0 V c).flushed 2 t = ((cfg0.win 2).blk t).view.read (Elt Ideal)
      (Cert.ReferenceIdeal.Read.val_main_v32 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e00, e01, e10, e11, e20, e21⟩ := blocks_at t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.ReferenceIdeal.Read.val_main_v32 (F := Ideal) (V c main_arg0) (V c main_arg3) (((cfg0.win 2).blk t).view.emb (ix2 p q))
  refine (product_entry (iblk0 V c 0 t) (iblk0 V c 1 t) p q).trans ?_
  refine Eq.trans ?_ (Cert.ReferenceIdeal.Read.val_main_v32_apply (V c main_arg0) (V c main_arg3) (((cfg0.win 2).blk t).view.emb (ix2 p q))).symm
  refine Finset.sum_congr rfl fun k _ => ?_
  have hl : ((cfg0.win 0).blk t).view.emb (ix2 p k) = Cert.ReferenceIdeal.Read.lidx_main_v32 (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hr : ((cfg0.win 1).blk t).view.emb (ix2 k q) = Cert.ReferenceIdeal.Read.ridx_main_v32 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have eA : iblk0 V c 0 t (ix2 p k) = V c main_arg0 (Cert.ReferenceIdeal.Read.lidx_main_v32 (((cfg0.win 2).blk t).view.emb (ix2 p q)) k) := by
    show V c main_arg0 (((cfg0.win 0).blk t).view.emb (ix2 p k)) = _
    rw [hl]
  have eB : iblk0 V c 1 t (ix2 k q) = V c main_arg3 (Cert.ReferenceIdeal.Read.ridx_main_v32 (((cfg0.win 2).blk t).view.emb (ix2 p q)) k) := by
    show V c main_arg3 (((cfg0.win 1).blk t).view.emb (ix2 k q)) = _
    rw [hr]
  rw [eA, eB]

/-- An index of the result lies in point t's block iff its coordinates are in the block's ranges. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row of the result is in the block of the point numbered by the row divided by 5000. -/
theorem covered (i : S100000x64.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  obtain ⟨-, -, -, -, e20, e21⟩ := blocks_at t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the result array is the whole product of the feature matrix and the first weight matrix. -/
theorem result_array (c : Dev nD) :
    (dat0 V c).arrAt 2 cfg0.N = Cert.ReferenceIdeal.Read.val_main_v32 (F := Ideal) (V c main_arg0) (V c main_arg3) :=
  (dat0 V c).arrAt_eq_of_cover 2 _ (fun t _ => flushed_product V c t) covered

end Cert.KernelIdeal.Layer1

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.Layer2.lean ====
/-
  The middle kernel region: bias, rectifier and the second weight matrix.

  Point t of the 20-point grid reads rows 5000·t … 5000·t + 4999 of the 100000×64 aggregated array, the whole 1×64
  bias row and the whole 64×128 weight matrix; it adds the bias row to every row of the block, takes the maximum
  with zero, and multiplies by the weights (the operands rounded to bf16, the identity at the extended reals) into
  a zero accumulator, writing the block back to the same rows of the 100000×128 result. Entry (r, q) of the result
  is the sum over k of max(aggregated (r, k) + bias (0, k), 0) · weight (k, q) — the reference's bias, rectifier
  and whole matrix product read at one entry.
-/
import proofs.«149004_j11312943857937_1_alg».proof.Proof.Gen.KernelIdeal.Frame
import proofs.«149004_j11312943857937_1_alg».proof.Proof.Gen.ReferenceIdeal.Read
import proofs.«149004_j11312943857937_1_alg».proof.Proof.LibPlainDot
import proofs.«149004_j11312943857937_1_alg».proof.Proof.LibRowVector
import Idealize.ShloMosaic.Lib.Pipeline.Value
import Idealize.ShloMosaic.Lib.ValueIdx
import Idealize.ShloMosaic.PureOps.Ideal.Laws

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The reference's spelling of the layer: the aggregated array plus the bias row copied down its rows, the
    maximum with the zero array, times the weight matrix. -/
def hidden (A : S100000x64.Idx → EReal) (b : S1x64.Idx → EReal) (W : S64x128.Idx → EReal) : S100000x128.Idx → EReal :=
  Host.dotGeneral (F := Ideal) (φ₁ := .f32) (φ₂ := .f32) Cert.ReferenceIdeal.dot_S100000x64_S64x128_S100000x128_1_0_0_1_n_n none
    (maximumf (F := Ideal) (φ := .f32)
      (addf (F := Ideal) (φ := .f32) A
        (broadcastInDim Cert.ReferenceIdeal.S100000x64 ![0, 1] Cert.ReferenceIdeal.Facts₀.bcast_S1x64_S100000x64_0_1 b))
      (Cert.ReferenceIdeal.Read.val_main_call1_v0 (F := Ideal)))
    W

/-- Entry (r, q) of it. -/
theorem hidden_apply (A : S100000x64.Idx → EReal) (b : S1x64.Idx → EReal) (W : S64x128.Idx → EReal) (r : Fin 100000) (q : Fin 128) :
    hidden A b W (ix2 r q)
      = ∑ k : Fin 64, max (A (ix2 r k) + b (ix2 0 k)) (Ideal.ofBits .f32 0x00000000#32) * W (ix2 k q) := by
  unfold hidden
  simp only [Host.dotGeneral]
  refine (Cert.PlainDot.dotGeneral_apply Cert.ReferenceIdeal.dot_S100000x64_S64x128_S100000x128_1_0_0_1_n_n rfl none _ _ _ r q).trans ?_
  refine Finset.sum_congr rfl fun k _ => ?_
  show max (A (ix2 r k) + broadcastInDim Cert.ReferenceIdeal.S100000x64 ![0, 1] Cert.ReferenceIdeal.Facts₀.bcast_S1x64_S100000x64_0_1 b (ix2 r k))
      (Ideal.ofBits .f32 0x00000000#32) * W (ix2 k q) = _
  rw [broadcastInDim_apply _ Cert.ReferenceIdeal.Facts₀.bcast_S1x64_S100000x64_0_1 b (ix2 r k) (ix2 0 k) (fun a => match a with
    | ⟨0, _⟩ => by show (0 : Nat) = if (1 : Nat) = 1 then 0 else r.val; rw [if_pos rfl]
    | ⟨1, _⟩ => by show k.val = if (64 : Nat) = 1 then 0 else k.val; rw [if_neg (by decide)])]

/-- The aggregated window and the result window move down one block of rows per point; the bias and weight
    windows stay. -/
theorem blocks_at : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value at entry (p, q). -/
theorem hidden_entry (x0 : Vec Ideal S5000x64 .f32) (x1 : Vec Ideal S1x64 .f32) (x2 : Vec Ideal S64x128 .f32) (p : Fin 5000) (q : Fin 128) :
    k1_pay1 (F := Ideal) x0 x1 x2 (ix2 p q)
      = ∑ k : Fin 64, max (x0 (ix2 p k) + x1 (ix2 0 k)) (Ideal.ofBits .f32 0x00000000#32) * x2 (ix2 k q) := by
  unfold k1_pay1
  refine (Cert.PlainDot.matmul_zero_apply dot_S5000x64_S64x128_S5000x128_1_0_0_1_n_n rfl none _ _ p q).trans ?_
  refine Finset.sum_congr rfl fun k _ => ?_
  show max (shapeCast S5000x64 x0 shapeCasts_S5000x64_S5000x64 (ix2 p k)
      + broadcastTo S5000x64 (shapeCast S1x64 x1 shapeCasts_S1x64_S1x64) broadcasts_S1x64_S5000x64 (ix2 p k))
      (Ideal.ofBits .f32 0x00000000#32) * x2 (ix2 k q) = _
  rw [shapeCast_self, shapeCast_self, Cert.RowVector.broadcastTo_row (by decide)]

/-- What point t writes back is block t of the layer of the three arrays as the region finds them. -/
theorem flushed_hidden (c : Dev nD) (t : Fin cfg1.N) :
    (dat1 V c).flushed 3 t = ((cfg1.win 3).blk t).view.read (Elt Ideal)
      (hidden (V c main_v45) (V c main_v46) (V c main_arg5)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x128) hz]
  obtain ⟨e00, e01, e10, e11, e20, e21, e30, e31⟩ := blocks_at t
  have hN : cfg1.N = 20 := N_1
  have htN : t.val < 20 := hN ▸ t.isLt
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = hidden (V c main_v45) (V c main_v46) (V c main_arg5) (((cfg1.win 3).blk t).view.emb (ix2 p q))
  refine (hidden_entry (iblk1 V c 0 t) (iblk1 V c 1 t) (iblk1 V c 2 t) p q).trans ?_
  have hi : ((cfg1.win 3).blk t).view.emb (ix2 p q) = ix2 (⟨t.val * 5000 + p.val, by have := p.isLt; omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hi, hidden_apply]
  refine Finset.sum_congr rfl fun k _ => ?_
  have h0 : ((cfg1.win 0).blk t).view.emb (ix2 p k) = ix2 (⟨t.val * 5000 + p.val, by have := p.isLt; omega⟩ : Fin 100000) k := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k q) = ix2 k q := by
    funext a; apply Fin.ext
    match a with
    | ⟨0, _⟩ => show win1_2.index t (0 : Fin 2) * 64 + 1 * k.val = k.val; omega
    | ⟨1, _⟩ => show win1_2.index t (1 : Fin 2) * 128 + 1 * q.val = q.val; omega
  have eA : iblk1 V c 0 t (ix2 p k) = V c main_v45 (ix2 (⟨t.val * 5000 + p.val, by have := p.isLt; omega⟩ : Fin 100000) k) := by
    show V c main_v45 (((cfg1.win 0).blk t).view.emb (ix2 p k)) = _
    rw [h0]
  have eB : iblk1 V c 1 t (ix2 (0 : Fin 1) k) = V c main_v46 (ix2 (0 : Fin 1) k) := by
    show V c main_v46 (((cfg1.win 1).blk t).view.emb (ix2 (0 : Fin 1) k)) = _
    rw [h1]
  have eC : iblk1 V c 2 t (ix2 k q) = V c main_arg5 (ix2 k q) := by
    show V c main_arg5 (((cfg1.win 2).blk t).view.emb (ix2 k q)) = _
    rw [h2]
  rw [eA, eB, eC]

/-- An index of the result lies in point t's block iff its coordinates are in the block's ranges. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Every row of the result is in the block of the point numbered by the row divided by 5000. -/
theorem covered (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, e30, e31⟩ := blocks_at t
  have ht : t.val = (i 0).val / 5000 := rfl
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region the result array is the layer of the aggregated array, the bias row and the weights. -/
theorem result_array (c : Dev nD) :
    (dat1 V c).arrAt 3 cfg1.N = hidden (V c main_v45) (V c main_v46) (V c main_arg5) :=
  (dat1 V c).arrAt_eq_of_cover 3 _ (fun t _ => flushed_hidden V c t) covered

end Cert.KernelIdeal.Layer2

end
-- ==== Proof.OutBias.lean ====
/-
  The last kernel region: the second aggregation plus the output bias.

  Point t of the 20-point grid reads rows 5000·t … 5000·t + 4999 of the 100000×128 aggregated array and the whole
  1×128 bias row, adds the row to every row of the block and writes the block back to the same rows of the result.
  Entry (r, q) of the result is the aggregated entry (r, q) plus the bias entry (0, q): the aggregated array plus
  the bias row copied down all 100000 rows, which is how the reference adds its bias.
-/
import proofs.«149004_j11312943857937_1_alg».proof.Proof.Gen.KernelIdeal.Frame
import proofs.«149004_j11312943857937_1_alg».proof.Proof.LibRowVector
import Idealize.ShloMosaic.Lib.Pipeline.Value
import Idealize.ShloMosaic.Lib.ValueIdx

noncomputable section

namespace Cert.KernelIdeal.OutBias

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- An array plus a one-row array copied down its rows. -/
def plusRow (h : S1x128.BroadcastsInDim S100000x128 (![0, 1] : Fin 2 → Fin 2))
    (A : S100000x128.Idx → EReal) (b : S1x128.Idx → EReal) : S100000x128.Idx → EReal :=
  addf (F := Ideal) (φ := .f32) A (broadcastInDim S100000x128 ![0, 1] h b)

/-- Entry (r, q) of it: the array's entry plus the row's entry (0, q). -/
theorem plusRow_apply (h : S1x128.BroadcastsInDim S100000x128 (![0, 1] : Fin 2 → Fin 2))
    (A : S100000x128.Idx → EReal) (b : S1x128.Idx → EReal) (r : Fin 100000) (q : Fin 128) :
    plusRow h A b (ix2 r q) = A (ix2 r q) + b (ix2 0 q) := by
  unfold plusRow
  show A (ix2 r q) + broadcastInDim S100000x128 ![0, 1] h b (ix2 r q) = _
  rw [broadcastInDim_apply _ h b (ix2 r q) (ix2 0 q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])]

/-- The aggregated window and the result window move down one block of rows per point; the bias window stays. -/
theorem blocks_at : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value at entry (p, q): the block's entry plus the bias row's entry (0, q). -/
theorem sum_entry (x0 : Vec Ideal S5000x128 .f32) (x1 : Vec Ideal S1x128 .f32) (p : Fin 5000) (q : Fin 128) :
    k2_pay1 (F := Ideal) x0 x1 (ix2 p q) = x0 (ix2 p q) + x1 (ix2 0 q) := by
  unfold k2_pay1
  show shapeCast S5000x128 x0 shapeCasts_S5000x128_S5000x128 (ix2 p q)
    + broadcastTo S5000x128 (shapeCast S1x128 x1 shapeCasts_S1x128_S1x128) broadcasts_S1x128_S5000x128 (ix2 p q) = _
  rw [shapeCast_self, shapeCast_self, Cert.RowVector.broadcastTo_row (by decide)]

/-- What point t writes back is block t of the aggregated array plus the bias row copied down. -/
theorem flushed_sum (h : S1x128.BroadcastsInDim S100000x128 (![0, 1] : Fin 2 → Fin 2)) (c : Dev nD) (t : Fin cfg2.N) :
    (dat2 V c).flushed 2 t = ((cfg2.win 2).blk t).view.read (Elt Ideal)
      (plusRow h (V c main_v60) (V c main_v61)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e00, e01, e10, e11, e20, e21⟩ := blocks_at t
  have hN : cfg2.N = 20 := N_2
  have htN : t.val < 20 := hN ▸ t.isLt
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = plusRow h (V c main_v60) (V c main_v61) (((cfg2.win 2).blk t).view.emb (ix2 p q))
  refine (sum_entry (iblk2 V c 0 t) (iblk2 V c 1 t) p q).trans ?_
  have hi : ((cfg2.win 2).blk t).view.emb (ix2 p q) = ix2 (⟨t.val * 5000 + p.val, by have := p.isLt; omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hi, plusRow_apply]
  have h0 : ((cfg2.win 0).blk t).view.emb (ix2 p q) = ix2 (⟨t.val * 5000 + p.val, by have := p.isLt; omega⟩ : Fin 100000) q := by
    funext a; apply Fin.ext
    match a with
    | ⟨0, _⟩ => show win2_0.index t (0 : Fin 2) * 5000 + 1 * p.val = t.val * 5000 + p.val; omega
    | ⟨1, _⟩ => show win2_0.index t (1 : Fin 2) * 128 + 1 * q.val = q.val; omega
  have h1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 128 + 1 * q.val = q.val; omega
  have eA : iblk2 V c 0 t (ix2 p q) = V c main_v60 (ix2 (⟨t.val * 5000 + p.val, by have := p.isLt; omega⟩ : Fin 100000) q) := by
    show V c main_v60 (((cfg2.win 0).blk t).view.emb (ix2 p q)) = _
    rw [h0]
  have eB : iblk2 V c 1 t (ix2 (0 : Fin 1) q) = V c main_v61 (ix2 (0 : Fin 1) q) := by
    show V c main_v61 (((cfg2.win 1).blk t).view.emb (ix2 (0 : Fin 1) q)) = _
    rw [h1]
  rw [eA, eB]

/-- An index of the result lies in point t's block iff its coordinates are in the block's ranges. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v62).slice (win2_2.rect t)).set ↔ _
  rw [View.set_slice_whole, Rect.mem_set_unit]
  exact Iff.rfl

/-- Every row of the result is in the block of the point numbered by the row divided by 5000. -/
theorem covered (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  obtain ⟨-, -, -, -, e20, e21⟩ := blocks_at t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array is the aggregated array plus the bias row copied down its rows. -/
theorem result_array (h : S1x128.BroadcastsInDim S100000x128 (![0, 1] : Fin 2 → Fin 2)) (c : Dev nD) :
    (dat2 V c).arrAt 2 cfg2.N = plusRow h (V c main_v60) (V c main_v61) :=
  (dat2 V c).arrAt_eq_of_cover 2 _ (fun t _ => flushed_sum V h c t) covered

end Cert.KernelIdeal.OutBias

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.Walk.lean ====
/-
  The buffer contents at the boundaries of the idealized kernel's run, read back to the arguments.

  The run alternates stretches of host operations with the three kernel regions. Reading each boundary's contents
  at the few buffers the next region or the next stretch reads gives, level by level:
  * before the first region, the row and column index lists (the edge list with one self loop per node appended)
    and the symmetric normalisation of the edge weights are the reference's own terms of the edge arguments;
  * the first region leaves features · W1 (module Layer1); the stretch after it gathers that array's rows by the
    row indices, scales them by the normalisation and adds them into the rows named by the column indices — the
    reference's first aggregation, the same operations applied to the same operands;
  * the second region leaves max(aggregated + b1, 0) · W2 (module Layer2), its bias row being the bias vector
    reshaped to one row, which is the reference's broadcast of it to one row;
  * the stretch after it aggregates again, and the last region adds the output bias row (module OutBias).
  So the result buffer ends at the reference's composed term of the seven arguments.
-/
import proofs.«149004_j11312943857937_1_alg».proof.Proof.Gen.KernelIdeal.Frame
import proofs.«149004_j11312943857937_1_alg».proof.Proof.Gen.ReferenceIdeal.Read
import proofs.«149004_j11312943857937_1_alg».proof.Proof.Layer1
import proofs.«149004_j11312943857937_1_alg».proof.Proof.Layer2
import proofs.«149004_j11312943857937_1_alg».proof.Proof.OutBias
import proofs.«149004_j11312943857937_1_alg».proof.Proof.LibRowOfVector
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Before the first region -/

set_option maxHeartbeats 2000000 in
/-- No host operation before the first region writes argument 0. -/
theorem W3_arg0 : W3 m ρ c (Proc.devRef .tc main_arg0) = m ((c : Thread nD τ).loc main_arg0) := by
  dsimp only [W3, W2, W1, hostOps0_2, hostOps0_1, hostOps0]
  after_results

set_option maxHeartbeats 2000000 in
/-- No host operation before the first region writes argument 3. -/
theorem W3_arg3 : W3 m ρ c (Proc.devRef .tc main_arg3) = m ((c : Thread nD τ).loc main_arg3) := by
  dsimp only [W3, W2, W1, hostOps0_2, hostOps0_1, hostOps0]
  after_results

set_option maxHeartbeats 2000000 in
/-- No host operation before the first region writes argument 4. -/
theorem W3_arg4 : W3 m ρ c (Proc.devRef .tc main_arg4) = m ((c : Thread nD τ).loc main_arg4) := by
  dsimp only [W3, W2, W1, hostOps0_2, hostOps0_1, hostOps0]
  after_results

set_option maxHeartbeats 2000000 in
/-- No host operation before the first region writes argument 5. -/
theorem W3_arg5 : W3 m ρ c (Proc.devRef .tc main_arg5) = m ((c : Thread nD τ).loc main_arg5) := by
  dsimp only [W3, W2, W1, hostOps0_2, hostOps0_1, hostOps0]
  after_results

set_option maxHeartbeats 2000000 in
/-- No host operation before the first region writes argument 6. -/
theorem W3_arg6 : W3 m ρ c (Proc.devRef .tc main_arg6) = m ((c : Thread nD τ).loc main_arg6) := by
  dsimp only [W3, W2, W1, hostOps0_2, hostOps0_1, hostOps0]
  after_results

set_option maxHeartbeats 2000000 in
/-- The row indices: the edge list's first row with the node numbers appended. -/
theorem W3_v3 : W3 m ρ c (Proc.devRef .tc main_v3) = Cert.ReferenceIdeal.Read.val_main_v3 (F := Ideal) (m ((c : Thread nD τ).loc main_arg1)) := by
  dsimp only [W3, W2, W1, hostOps0_2, hostOps0_1, hostOps0]
  after_results
  rfl

set_option maxHeartbeats 2000000 in
/-- The column indices: the edge list's second row with the node numbers appended. -/
theorem W3_v6 : W3 m ρ c (Proc.devRef .tc main_v6) = Cert.ReferenceIdeal.Read.val_main_v6 (F := Ideal) (m ((c : Thread nD τ).loc main_arg1)) := by
  dsimp only [W3, W2, W1, hostOps0_2, hostOps0_1, hostOps0]
  after_results
  rfl

/-- One stretch, from any contents: the inverse square root of the degrees where the degree is positive, zero
    elsewhere (the selection is an outlined helper of three operations). -/
theorem dinv_stage (X : Valuation τ sig (Elt Ideal)) :
    StableHlo.after hostOps0_1 X (Proc.devRef .tc main_v15)
      = select (X (Proc.devRef .tc main_v13)) (X (Proc.devRef .tc main_v14))
          (broadcastInDim S100000 ![] Facts₀.bcast_S_S100000 (id (X (Proc.devRef .tc main_cst_2)))) := by
  after_results
  rfl

theorem keep_v3 (X : Valuation τ sig (Elt Ideal)) :
    StableHlo.after hostOps0_1 X (Proc.devRef .tc main_v3) = X (Proc.devRef .tc main_v3) := by
  after_results
theorem keep_v6 (X : Valuation τ sig (Elt Ideal)) :
    StableHlo.after hostOps0_1 X (Proc.devRef .tc main_v6) = X (Proc.devRef .tc main_v6) := by
  after_results
theorem keep_v8 (X : Valuation τ sig (Elt Ideal)) :
    StableHlo.after hostOps0_1 X (Proc.devRef .tc main_v8) = X (Proc.devRef .tc main_v8) := by
  after_results

set_option maxHeartbeats 2000000 in
theorem W1_v13 : W1 m ρ c (Proc.devRef .tc main_v13) = Cert.ReferenceIdeal.Read.val_main_v13 (F := Ideal) (m ((c : Thread nD τ).loc main_arg1)) (m ((c : Thread nD τ).loc main_arg2)) := by
  dsimp only [W1, hostOps0]
  after_results
  rfl
set_option maxHeartbeats 2000000 in
theorem W1_v14 : W1 m ρ c (Proc.devRef .tc main_v14) = Cert.ReferenceIdeal.Read.val_main_v14 (F := Ideal) (m ((c : Thread nD τ).loc main_arg1)) (m ((c : Thread nD τ).loc main_arg2)) := by
  dsimp only [W1, hostOps0]
  after_results
  rfl
set_option maxHeartbeats 2000000 in
theorem W1_cst_2 : W1 m ρ c (Proc.devRef .tc main_cst_2) = Cert.ReferenceIdeal.Read.val_main_cst_2 (F := Ideal) := by
  dsimp only [W1, hostOps0]
  after_results
  rfl
set_option maxHeartbeats 2000000 in
theorem W1_v3 : W1 m ρ c (Proc.devRef .tc main_v3) = Cert.ReferenceIdeal.Read.val_main_v3 (F := Ideal) (m ((c : Thread nD τ).loc main_arg1)) := by
  dsimp only [W1, hostOps0]
  after_results
  rfl
set_option maxHeartbeats 2000000 in
theorem W1_v6 : W1 m ρ c (Proc.devRef .tc main_v6) = Cert.ReferenceIdeal.Read.val_main_v6 (F := Ideal) (m ((c : Thread nD τ).loc main_arg1)) := by
  dsimp only [W1, hostOps0]
  after_results
  rfl
set_option maxHeartbeats 2000000 in
theorem W1_v8 : W1 m ρ c (Proc.devRef .tc main_v8) = Cert.ReferenceIdeal.Read.val_main_v8 (F := Ideal) (m ((c : Thread nD τ).loc main_arg2)) := by
  dsimp only [W1, hostOps0]
  after_results
  rfl

/-- The inverse square roots of the degrees, zero where the degree is not positive. -/
theorem W2_v15 : W2 m ρ c (Proc.devRef .tc main_v15) = Cert.ReferenceIdeal.Read.val_main_v15 (F := Ideal) (m ((c : Thread nD τ).loc main_arg1)) (m ((c : Thread nD τ).loc main_arg2)) := by
  refine (dinv_stage (W1 m ρ c)).trans ?_
  rw [W1_v13, W1_v14, W1_cst_2]
  rfl
theorem W2_v3 : W2 m ρ c (Proc.devRef .tc main_v3) = Cert.ReferenceIdeal.Read.val_main_v3 (F := Ideal) (m ((c : Thread nD τ).loc main_arg1)) :=
  (keep_v3 (W1 m ρ c)).trans (W1_v3 m ρ c)
theorem W2_v6 : W2 m ρ c (Proc.devRef .tc main_v6) = Cert.ReferenceIdeal.Read.val_main_v6 (F := Ideal) (m ((c : Thread nD τ).loc main_arg1)) :=
  (keep_v6 (W1 m ρ c)).trans (W1_v6 m ρ c)
theorem W2_v8 : W2 m ρ c (Proc.devRef .tc main_v8) = Cert.ReferenceIdeal.Read.val_main_v8 (F := Ideal) (m ((c : Thread nD τ).loc main_arg2)) :=
  (keep_v8 (W1 m ρ c)).trans (W1_v8 m ρ c)

set_option maxHeartbeats 2000000 in
/-- One stretch, from any contents that hold the reference's index lists, weights and inverse square roots: the
    normalisation is the reference's. -/
theorem norm_stage (X : Valuation τ sig (Elt Ideal))
    (x1 : (⟨Cert.ReferenceIdeal.S2x1600000, .i32⟩ : BufTy).Contents (Elt Ideal))
    (x2 : (⟨Cert.ReferenceIdeal.S1600000, .f32⟩ : BufTy).Contents (Elt Ideal))
    (h15 : X (Proc.devRef .tc main_v15) = Cert.ReferenceIdeal.Read.val_main_v15 (F := Ideal) x1 x2)
    (h3 : X (Proc.devRef .tc main_v3) = Cert.ReferenceIdeal.Read.val_main_v3 (F := Ideal) x1)
    (h6 : X (Proc.devRef .tc main_v6) = Cert.ReferenceIdeal.Read.val_main_v6 (F := Ideal) x1)
    (h8 : X (Proc.devRef .tc main_v8) = Cert.ReferenceIdeal.Read.val_main_v8 (F := Ideal) x2) :
    StableHlo.after hostOps0_2 X (Proc.devRef .tc main_v31) = Cert.ReferenceIdeal.Read.val_main_v31 (F := Ideal) x1 x2 := by
  after_results
  rw [h15, h3, h6, h8]
  rfl

/-- The normalisation: each edge's weight times the inverse square roots of its two ends' weighted degrees. -/
theorem W3_v31 : W3 m ρ c (Proc.devRef .tc main_v31) = Cert.ReferenceIdeal.Read.val_main_v31 (F := Ideal) (m ((c : Thread nD τ).loc main_arg1)) (m ((c : Thread nD τ).loc main_arg2)) :=
  norm_stage (W2 m ρ c) _ _ (W2_v15 m ρ c) (W2_v3 m ρ c) (W2_v6 m ρ c) (W2_v8 m ρ c)

/-! ## After the first region -/

/-- The first region's result: the features times the first weight matrix. -/
theorem W4_v32 : W4 m ρ c (Proc.devRef .tc main_v32) = Cert.ReferenceIdeal.Read.val_main_v32 (F := Ideal) (m ((c : Thread nD τ).loc main_arg0)) (m ((c : Thread nD τ).loc main_arg3)) := by
  refine (W4_arr m ρ c 2).trans ?_
  refine (Cert.KernelIdeal.Layer1.result_array (V3 m ρ) c).trans ?_
  show Cert.ReferenceIdeal.Read.val_main_v32 (F := Ideal) (W3 m ρ c (Proc.devRef .tc main_arg0)) (W3 m ρ c (Proc.devRef .tc main_arg3)) = _
  rw [W3_arg0, W3_arg3]

theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_v31 : W4 m ρ c (Proc.devRef .tc main_v31) = Cert.ReferenceIdeal.Read.val_main_v31 (F := Ideal) (m ((c : Thread nD τ).loc main_arg1)) (m ((c : Thread nD τ).loc main_arg2)) :=
  (W4_of_ne m ρ c main_v31 (by decide)).trans (W3_v31 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)

/-! ## Before the second region -/

set_option maxHeartbeats 2000000 in
/-- The first aggregation. -/
theorem W5_v45 : W5 m ρ c (Proc.devRef .tc main_v45) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) := by
  dsimp only [W5, hostOps1]
  after_results
  rw [W4_v32, W4_v3, W4_v6, W4_v31]
  rfl

set_option maxHeartbeats 2000000 in
/-- The first bias as one row. -/
theorem W5_v46 : W5 m ρ c (Proc.devRef .tc main_v46) = Cert.ReferenceIdeal.Read.val_main_v46 (F := Ideal) (m ((c : Thread nD τ).loc main_arg4)) := by
  dsimp only [W5, hostOps1]
  after_results
  rw [W4_arg4]
  exact Cert.RowOfVector.shapeCast_eq_broadcastInDim (by decide) _ _ _

set_option maxHeartbeats 2000000 in
theorem W5_arg5 : W5 m ρ c (Proc.devRef .tc main_arg5) = m ((c : Thread nD τ).loc main_arg5) := by
  dsimp only [W5, hostOps1]
  after_results
  exact W4_arg5 m ρ c

set_option maxHeartbeats 2000000 in
theorem W5_arg6 : W5 m ρ c (Proc.devRef .tc main_arg6) = m ((c : Thread nD τ).loc main_arg6) := by
  dsimp only [W5, hostOps1]
  after_results
  exact W4_arg6 m ρ c

set_option maxHeartbeats 2000000 in
theorem W5_v3 : W5 m ρ c (Proc.devRef .tc main_v3) = Cert.ReferenceIdeal.Read.val_main_v3 (F := Ideal) (m ((c : Thread nD τ).loc main_arg1)) := by
  dsimp only [W5, hostOps1]
  after_results
  exact W4_v3 m ρ c
set_option maxHeartbeats 2000000 in
theorem W5_v6 : W5 m ρ c (Proc.devRef .tc main_v6) = Cert.ReferenceIdeal.Read.val_main_v6 (F := Ideal) (m ((c : Thread nD τ).loc main_arg1)) := by
  dsimp only [W5, hostOps1]
  after_results
  exact W4_v6 m ρ c
set_option maxHeartbeats 2000000 in
theorem W5_v31 : W5 m ρ c (Proc.devRef .tc main_v31) = Cert.ReferenceIdeal.Read.val_main_v31 (F := Ideal) (m ((c : Thread nD τ).loc main_arg1)) (m ((c : Thread nD τ).loc main_arg2)) := by
  dsimp only [W5, hostOps1]
  after_results
  exact W4_v31 m ρ c

/-! ## After the second region -/

/-- The second region's result: the rectified, biased first aggregation times the second weight matrix. -/
theorem W6_v47 : W6 m ρ c (Proc.devRef .tc main_v47)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  refine (Cert.KernelIdeal.Layer2.result_array (V5 m ρ) c).trans ?_
  show Cert.KernelIdeal.Layer2.hidden (W5 m ρ c (Proc.devRef .tc main_v45)) (W5 m ρ c (Proc.devRef .tc main_v46)) (W5 m ρ c (Proc.devRef .tc main_arg5)) = _
  rw [W5_v45, W5_v46, W5_arg5]
  rfl

theorem W6_v3 : W6 m ρ c (Proc.devRef .tc main_v3) = Cert.ReferenceIdeal.Read.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.Read.val_main_v6 (F := Ideal) (m ((c : Thread nD τ).loc main_arg1)) :=
  (W6_of_ne m ρ c main_v6 (by decide)).trans (W5_v6 m ρ c)
theorem W6_v31 : W6 m ρ c (Proc.devRef .tc main_v31) = Cert.ReferenceIdeal.Read.val_main_v31 (F := Ideal) (m ((c : Thread nD τ).loc main_arg1)) (m ((c : Thread nD τ).loc main_arg2)) :=
  (W6_of_ne m ρ c main_v31 (by decide)).trans (W5_v31 m ρ c)
theorem W6_arg6 : W6 m ρ c (Proc.devRef .tc main_arg6) = m ((c : Thread nD τ).loc main_arg6) :=
  (W6_of_ne m ρ c main_arg6 (by decide)).trans (W5_arg6 m ρ c)

/-! ## Before the last region -/

set_option maxHeartbeats 2000000 in
/-- The second aggregation. -/
theorem W7_v60 : W7 m ρ c (Proc.devRef .tc main_v60)
    = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W7, hostOps2]
  after_results
  rw [W6_v47, W6_v3, W6_v6, W6_v31]
  rfl

set_option maxHeartbeats 2000000 in
/-- The output bias as one row. -/
theorem W7_v61 : W7 m ρ c (Proc.devRef .tc main_v61) = Cert.ReferenceIdeal.Read.val_main_v64 (F := Ideal) (m ((c : Thread nD τ).loc main_arg6)) := by
  dsimp only [W7, hostOps2]
  after_results
  rw [W6_arg6]
  exact Cert.RowOfVector.shapeCast_eq_broadcastInDim (by decide) _ _ _

/-! ## After the last region -/

/-- The result buffer after the run: the reference's composed term of the arguments. -/
theorem W8_v62 : W8 m ρ c (Proc.devRef .tc main_v62)
    = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Cert.KernelIdeal.OutBias.result_array (V7 m ρ) Cert.ReferenceIdeal.Facts₀.bcast_S1x128_S100000x128_0_1 c).trans ?_
  show Cert.KernelIdeal.OutBias.plusRow Cert.ReferenceIdeal.Facts₀.bcast_S1x128_S100000x128_0_1 (W7 m ρ c (Proc.devRef .tc main_v60)) (W7 m ρ c (Proc.devRef .tc main_v61)) = _
  rw [W7_v60, W7_v61]
  rfl

end Cert.KernelIdeal.Walk

end
-- ==== Proof.lean ====
/-
  A two-layer graph convolution, kernel against reference, at the extended reals.

  Both programs first build, from the edge list and the edge weights, the row and column index lists (one self loop
  per node appended) and the symmetric normalisation norm(e) = dinv(row e) · w(e) · dinv(col e), where dinv is the
  inverse square root of the weighted in-degree (0 where the degree is not positive). Both then compute
      out = Agg(max(Agg(x · W1) + b1, 0) · W2) + b2,
  where Agg gathers rows by the row indices, scales row e by norm(e) and adds it into the row named by the column
  index of e. The two programs apply the very same host operations for the index lists, the normalisation and the
  two aggregations; they differ only in the three dense steps, which the kernel runs as three tiled regions of 20
  row blocks each:
  * x · W1 block by block with bf16-rounded operands (rounding is the identity at the extended reals, and a product
    into a zero accumulator is the plain sum of products, which is what the reference's whole product is);
  * the bias row added to each block, the maximum with zero, and · W2 block by block;
  * the output bias row added to each block.
  Each region's result array is shown to be the reference's corresponding stage of the arrays the region finds
  (modules Layer1, Layer2, OutBias); the buffer contents are then followed from the launch through every stretch
  and region (module Walk), so that the kernel's result buffer ends at the reference's own composed term of the
  seven arguments. No law of arithmetic beyond the definitions is used, so finiteness of the inputs is not needed.
  The three frames: the two kernels' are the generated region-by-region frames, the reference's is its generated
  run with the result dropped. The kernel's idealization rewrote nothing, so there is nothing to preserve.
-/
import proofs.«149004_j11312943857937_1_alg».proof.Defs
import proofs.«149004_j11312943857937_1_alg».proof.Proof.Gen.Kernel
import proofs.«149004_j11312943857937_1_alg».proof.Proof.Gen.Kernel.Skeleton
import proofs.«149004_j11312943857937_1_alg».proof.Proof.Gen.Kernel.Launch
import proofs.«149004_j11312943857937_1_alg».proof.Proof.Gen.Kernel.Points
import proofs.«149004_j11312943857937_1_alg».proof.Proof.Gen.Kernel.Frame
import proofs.«149004_j11312943857937_1_alg».proof.Proof.Gen.KernelIdeal
import proofs.«149004_j11312943857937_1_alg».proof.Proof.Gen.KernelIdeal.Skeleton
import proofs.«149004_j11312943857937_1_alg».proof.Proof.Gen.KernelIdeal.Launch
import proofs.«149004_j11312943857937_1_alg».proof.Proof.Gen.KernelIdeal.Points
import proofs.«149004_j11312943857937_1_alg».proof.Proof.Gen.KernelIdeal.Frame
import proofs.«149004_j11312943857937_1_alg».proof.Proof.Gen.ReferenceIdeal
import proofs.«149004_j11312943857937_1_alg».proof.Proof.Gen.Pre_finite_inputs
import proofs.«149004_j11312943857937_1_alg».proof.Proof.Gen.ReferenceIdeal.Run
import proofs.«149004_j11312943857937_1_alg».proof.Proof.Gen.ReferenceIdeal.Read
import proofs.«149004_j11312943857937_1_alg».proof.Proof.KRun
import proofs.«149004_j11312943857937_1_alg».proof.Proof.Walk
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both idealized programs end with the result buffer at the
    reference's composed term of the (kernel's) arguments. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Walk.W8_v62 m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v66_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
